-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3200000 : Shape := ⟨1, ![3200000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : IVec S3200000 32) (main_arg2 : IVec S3200000 32) (main_arg3 : FVec F S128x64 .f32) (main_arg4 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S3200000 : Shape := ⟨1, ![3200000]⟩
abbrev S128x64 : Shape := ⟨2, ![128, 64]⟩
abbrev S64 : Shape := ⟨1, ![64]⟩
abbrev S_ : Shape := ⟨0, ![]⟩
abbrev S100000 : Shape := ⟨1, ![100000]⟩
abbrev S3200000x1 : Shape := ⟨2, ![3200000, 1]⟩
abbrev S100000x64 : Shape := ⟨2, ![100000, 64]⟩
abbrev S5000x128 : Shape := ⟨2, ![5000, 128]⟩
abbrev S5000x64 : Shape := ⟨2, ![5000, 64]⟩
abbrev S3200000x64 : Shape := ⟨2, ![3200000, 64]⟩
abbrev S100000x1 : Shape := ⟨2, ![100000, 1]⟩
abbrev S1x64 : Shape := ⟨2, ![1, 64]⟩
abbrev S5000x1 : Shape := ⟨2, ![5000, 1]⟩

abbrev nBuf : Space → Nat
  | .hbm => 51
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S128x64, .f32⟩
  | .hbm, ⟨4, _⟩ => ⟨S64, .f32⟩
  | .hbm, ⟨5, _⟩ => ⟨S_, .f32⟩
  | .hbm, ⟨6, _⟩ => ⟨S3200000, .f32⟩
  | .hbm, ⟨7, _⟩ => ⟨S_, .f32⟩
  | .hbm, ⟨8, _⟩ => ⟨S100000, .f32⟩
  | .hbm, ⟨9, _⟩ => ⟨S3200000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x64, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000x64, .f32⟩
  | .hbm, ⟨31, _⟩ => ⟨S100000, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000, .f32⟩
  | .hbm, ⟨41, _⟩ => ⟨S3200000x1, .f32⟩
  | .hbm, ⟨42, _⟩ => ⟨S3200000x64, .f32⟩
  | .hbm, ⟨43, _⟩ => ⟨S3200000x64, .f32⟩
  | .hbm, ⟨44, _⟩ => ⟨S_, .f32⟩
  | .hbm, ⟨45, _⟩ => ⟨S100000x64, .f32⟩
  | .hbm, ⟨46, _⟩ => ⟨S3200000x1, .i32⟩
  | .hbm, ⟨47, _⟩ => ⟨S100000x64, .f32⟩
  | .hbm, ⟨48, _⟩ => ⟨S100000x1, .f32⟩
  | .hbm, ⟨49, _⟩ => ⟨S1x64, .f32⟩
  | .hbm, ⟨50, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x1, .f32⟩
  | .local _ .vmem, ⟨8, _⟩ => ⟨S5000x1, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_c_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S3200000x1_S3200000_n_0_0_1_wf : ScatterDims.WF S100000 S3200000x1 S3200000 [] [0] [0] 1
  dot_S5000x128_S128x64_S5000x64_1_0_0_1_n_n_wf : DotDims.WF S5000x128 S128x64 S5000x64 [1] [0] [0] [1] [] []
  gather_S100000x64_S3200000x1_S3200000x64_1_0_n_n_0_1_164_wf : GatherDims.WF S100000x64 S3200000x1 S3200000x64 [1] [0] [] [0] [] 1 ![1, 64]
  gather_S100000_S3200000x1_S3200000_n_0_n_n_0_1_1_wf : GatherDims.WF S100000 S3200000x1 S3200000 [] [0] [] [0] [] 1 ![1]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S3200000 : Shape := ⟨1, ![3200000]⟩
abbrev S128x64 : Shape := ⟨2, ![128, 64]⟩
abbrev S64 : Shape := ⟨1, ![64]⟩
abbrev S_ : Shape := ⟨0, ![]⟩
abbrev S100000 : Shape := ⟨1, ![100000]⟩
abbrev S3200000x1 : Shape := ⟨2, ![3200000, 1]⟩
abbrev S100000x64 : Shape := ⟨2, ![100000, 64]⟩
abbrev S3200000x64 : Shape := ⟨2, ![3200000, 64]⟩
abbrev S100000x1 : Shape := ⟨2, ![100000, 1]⟩
abbrev S1x64 : Shape := ⟨2, ![1, 64]⟩

abbrev nBuf : Space → Nat
  | .hbm => 58
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S128x64, .f32⟩
  | .hbm, ⟨4, _⟩ => ⟨S64, .f32⟩
  | .hbm, ⟨5, _⟩ => ⟨S_, .f32⟩
  | .hbm, ⟨6, _⟩ => ⟨S3200000, .f32⟩
  | .hbm, ⟨7, _⟩ => ⟨S_, .f32⟩
  | .hbm, ⟨8, _⟩ => ⟨S100000, .f32⟩
  | .hbm, ⟨9, _⟩ => ⟨S3200000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x64, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000x64, .f32⟩
  | .hbm, ⟨31, _⟩ => ⟨S100000, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000, .f32⟩
  | .hbm, ⟨41, _⟩ => ⟨S3200000x1, .f32⟩
  | .hbm, ⟨42, _⟩ => ⟨S3200000x64, .f32⟩
  | .hbm, ⟨43, _⟩ => ⟨S3200000x64, .f32⟩
  | .hbm, ⟨44, _⟩ => ⟨S_, .f32⟩
  | .hbm, ⟨45, _⟩ => ⟨S100000x64, .f32⟩
  | .hbm, ⟨46, _⟩ => ⟨S3200000x1, .i32⟩
  | .hbm, ⟨47, _⟩ => ⟨S100000x64, .f32⟩
  | .hbm, ⟨48, _⟩ => ⟨S100000, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S_, .f32⟩
  | .hbm, ⟨56, _⟩ => ⟨S100000x64, .f32⟩
  | .hbm, ⟨57, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_c_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call0_cst : Ref sig .tc := ⟨.hbm, 55, rfl⟩
abbrev main_call0_v0 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3200000x1_S3200000_n_0_0_1_wf : ScatterDims.WF S100000 S3200000x1 S3200000 [] [0] [0] 1
  dot_S100000x128_S128x64_S100000x64_1_0_0_1_n_n_wf : DotDims.WF S100000x128 S128x64 S100000x64 [1] [0] [0] [1] [] []
  gather_S100000x64_S3200000x1_S3200000x64_1_0_n_n_0_1_164_wf : GatherDims.WF S100000x64 S3200000x1 S3200000x64 [1] [0] [] [0] [] 1 ![1, 64]
  gather_S100000_S3200000x1_S3200000_n_0_n_n_0_1_1_wf : GatherDims.WF S100000 S3200000x1 S3200000 [] [0] [] [0] [] 1 ![1]
  scatter_S100000x64_S3200000x1_S3200000x64_1_0_0_1_wf : ScatterDims.WF S100000x64 S3200000x1 S3200000x64 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.OutRun.lean ====
/-
  The idealized kernel's run, with its result named.

  The program is two grid launches among two stretches of host operations.  Every weakly fair execution ends, nothing
  faults, the five argument arrays end as launched, and the result buffer ends holding what the last boundary of the
  run holds there: the contents `W4` that the second launch's write-backs leave.  The later modules read that array
  as one function of the arguments.
-/
import proofs.«164173_j23459111371162_1_alg».proof.Proof.Gen.KernelIdeal.Frame

set_option maxRecDepth 16384

noncomputable section

namespace Cert.KernelIdeal.OutRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the theorem for a program of several launches are found by unifying its conclusion with
-- this statement, which takes unfolding plain definitions in a metavariable's type
set_option backward.isDefEq.respectTransparency.types false in
/-- Every weakly fair execution of the program terminates without a fault; the result buffer ends at the last
    boundary's contents and the arguments end as launched. -/
theorem run_out : θ_run defs (onTc (τ := τ) (main (F := F))) ⟨m, fun _ => 0, ρ⟩ (fun r => ∀ c : Dev nD,
      r.2.mem ((c.tc : Thread nD τ).loc main_v35) = W4 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v35 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.OutRun

end
-- ==== Proof.HostStretch.lean ====
/-
  The host operations around the two grid launches, each stretch as one function of what it reads.

  `degree x` counts, for every node, the edges whose end point (the entries of `x`) is that node, and clamps the count
  below at one: a scatter-add of ones into zeros, then a maximum with one.  Before the first launch the program computes
  the out-degree from the sources and the in-degree from the destinations and leaves the arguments untouched.

  `aggregate xw src dst dOut` is the message passing between the launches: gather row `src[e]` of `xw` for every
  edge `e` (a negative index wrapped by the number of nodes), scale it by the out-degree of its source to the power
  -1/2, and scatter-add the scaled rows into zeros at row `dst[e]`.  After it the in-degree vector is reshaped to a
  column and the bias to a row, the forms the second launch reads.

  These functions are never opened: both programs apply the same ones.
-/
import proofs.«164173_j23459111371162_1_alg».proof.Proof.Gen.KernelIdeal.Frame
import Idealize.ShloMosaic.Lib.StableHlo.Run

set_option maxRecDepth 16384

noncomputable section

namespace Cert.KernelIdeal.HostStretch

open Idealize.ShloMosaic Idealize.ShloMosaic.TcCoe Idealize.SL.Sem Idealize.ShloMosaic.StableHlo
open Cert.KernelIdeal Cert.KernelIdeal.Gen

variable {F : FTy → Type} [FloatOps F]

/-- The clamped degree of every node, from one end point per edge. -/
def degree (x : (⟨S3200000, .i32⟩ : BufTy).Contents (Elt F)) : (⟨S100000, .f32⟩ : BufTy).Contents (Elt F) :=
  maximumf (Host.scatterAdd scatter_S100000_S3200000x1_S3200000_n_0_0_1 (broadcastInDim S100000 ![] bcast_S_S100000 (constant S_ .f32 0x00000000#32)) (broadcastInDim S3200000x1 ![0] bcast_S3200000_S3200000x1_0 x) (broadcastInDim S3200000 ![] bcast_S_S3200000 (constant S_ .f32 0x3F800000#32))) (broadcastInDim S100000 ![] bcast_S_S100000 (constant S_ .f32 0x3F800000#32))

/-- The aggregated messages: gather the product's rows along the sources, scale by the sources' out-degree to the
    power -1/2, scatter-add along the destinations. -/
def aggregate (xw : (⟨S100000x64, .f32⟩ : BufTy).Contents (Elt F)) (src dst : (⟨S3200000, .i32⟩ : BufTy).Contents (Elt F))
    (dOut : (⟨S100000, .f32⟩ : BufTy).Contents (Elt F)) : (⟨S100000x64, .f32⟩ : BufTy).Contents (Elt F) :=
  Host.scatterAdd scatter_S100000x64_S3200000x1_S3200000x64_1_0_0_1 (broadcastInDim S100000x64 ![] bcast_S_S100000x64 (constant S_ .f32 0x00000000#32)) (broadcastInDim S3200000x1 ![0] bcast_S3200000_S3200000x1_0 dst) (mulf (Host.gather gather_S100000x64_S3200000x1_S3200000x64_1_0_n_n_0_1_164 xw (broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src))) (broadcastInDim S3200000x64 ![0, 1] bcast_S3200000x1_S3200000x64_0_1 (broadcastInDim S3200000x1 ![0] bcast_S3200000_S3200000x1_0 (Host.gather gather_S100000_S3200000x1_S3200000_n_0_n_n_0_1_1 (Host.rsqrt dOut) (broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src))))))

variable (m : (ℓ : Loc nD τ sig) → Buf (Elt F) ℓ) (ρ : Dev nD → PrngReg)

/-! ## When the first launch begins -/

theorem first_arg0 (c : Dev nD) : W1 m ρ c (Proc.devRef .tc main_arg0) = m ((c : Thread nD τ).loc main_arg0) := by
  show StableHlo.after hostOps0 (W0 m ρ c) (Proc.devRef .tc main_arg0) = _
  after_results
theorem first_arg1 (c : Dev nD) : W1 m ρ c (Proc.devRef .tc main_arg1) = m ((c : Thread nD τ).loc main_arg1) := by
  show StableHlo.after hostOps0 (W0 m ρ c) (Proc.devRef .tc main_arg1) = _
  after_results
theorem first_arg2 (c : Dev nD) : W1 m ρ c (Proc.devRef .tc main_arg2) = m ((c : Thread nD τ).loc main_arg2) := by
  show StableHlo.after hostOps0 (W0 m ρ c) (Proc.devRef .tc main_arg2) = _
  after_results
theorem first_arg3 (c : Dev nD) : W1 m ρ c (Proc.devRef .tc main_arg3) = m ((c : Thread nD τ).loc main_arg3) := by
  show StableHlo.after hostOps0 (W0 m ρ c) (Proc.devRef .tc main_arg3) = _
  after_results
theorem first_arg4 (c : Dev nD) : W1 m ρ c (Proc.devRef .tc main_arg4) = m ((c : Thread nD τ).loc main_arg4) := by
  show StableHlo.after hostOps0 (W0 m ρ c) (Proc.devRef .tc main_arg4) = _
  after_results

/-- The out-degree, computed before the first launch from the sources. -/
theorem first_degree_out (c : Dev nD) :
    W1 m ρ c (Proc.devRef .tc main_v5) = degree (m ((c : Thread nD τ).loc main_arg1)) := by
  show StableHlo.after hostOps0 (W0 m ρ c) (Proc.devRef .tc main_v5) = _
  after_results
  rfl

/-- The in-degree, computed before the first launch from the destinations. -/
theorem first_degree_in (c : Dev nD) :
    W1 m ρ c (Proc.devRef .tc main_v10) = degree (m ((c : Thread nD τ).loc main_arg2)) := by
  show StableHlo.after hostOps0 (W0 m ρ c) (Proc.devRef .tc main_v10) = _
  after_results
  rfl

/-! ## Between the launches: the first launch writes only its result -/

theorem mid_arg1 (c : Dev nD) : W2 m ρ c (Proc.devRef .tc main_arg1) = m ((c : Thread nD τ).loc main_arg1) :=
  (W2_of_ne m ρ c main_arg1 (by decide)).trans (first_arg1 m ρ c)
theorem mid_arg2 (c : Dev nD) : W2 m ρ c (Proc.devRef .tc main_arg2) = m ((c : Thread nD τ).loc main_arg2) :=
  (W2_of_ne m ρ c main_arg2 (by decide)).trans (first_arg2 m ρ c)
theorem mid_arg4 (c : Dev nD) : W2 m ρ c (Proc.devRef .tc main_arg4) = m ((c : Thread nD τ).loc main_arg4) :=
  (W2_of_ne m ρ c main_arg4 (by decide)).trans (first_arg4 m ρ c)
theorem mid_degree_out (c : Dev nD) :
    W2 m ρ c (Proc.devRef .tc main_v5) = degree (m ((c : Thread nD τ).loc main_arg1)) :=
  (W2_of_ne m ρ c main_v5 (by decide)).trans (first_degree_out m ρ c)
theorem mid_degree_in (c : Dev nD) :
    W2 m ρ c (Proc.devRef .tc main_v10) = degree (m ((c : Thread nD τ).loc main_arg2)) :=
  (W2_of_ne m ρ c main_v10 (by decide)).trans (first_degree_in m ρ c)
/-- The first launch's result buffer holds what its write-backs left. -/
theorem mid_product (c : Dev nD) :
    W2 m ρ c (Proc.devRef .tc main_v11) = (dat0 (V1 m ρ) c).arrAt 2 cfg0.N := W2_arr m ρ c 2

/-! ## The second stretch, from any contents -/

set_option maxHeartbeats 2000000 in
/-- From any buffer contents, the second stretch leaves in its scatter's result `aggregate` of the first launch's
    result buffer, the two index arrays and the out-degree buffer. -/
theorem stretch_messages (Wv : Valuation τ sig (Elt F)) :
    StableHlo.after hostOps1 Wv (Proc.devRef .tc main_v32)
      = aggregate (Wv (Proc.devRef .tc main_v11)) (Wv (Proc.devRef .tc main_arg1)) (Wv (Proc.devRef .tc main_arg2))
          (Wv (Proc.devRef .tc main_v5)) := by
  after_results_simp <;> rfl

set_option maxHeartbeats 2000000 in
/-- and the in-degree buffer reshaped to a column, -/
theorem stretch_degree (Wv : Valuation τ sig (Elt F)) :
    StableHlo.after hostOps1 Wv (Proc.devRef .tc main_v33)
      = shapeCast S100000x1 (Wv (Proc.devRef .tc main_v10)) shapeCasts_S100000_S100000x1 := by
  after_results_simp <;> rfl

set_option maxHeartbeats 2000000 in
/-- and the bias reshaped to a row. -/
theorem stretch_bias (Wv : Valuation τ sig (Elt F)) :
    StableHlo.after hostOps1 Wv (Proc.devRef .tc main_v34)
      = shapeCast S1x64 (Wv (Proc.devRef .tc main_arg4)) shapeCasts_S64_S1x64 := by
  after_results_simp <;> rfl

/-! ## When the second launch begins -/

/-- The aggregated messages, from the first launch's result, the two index arrays and the out-degree. -/
theorem second_messages (c : Dev nD) :
    W3 m ρ c (Proc.devRef .tc main_v32)
      = aggregate ((dat0 (V1 m ρ) c).arrAt 2 cfg0.N) (m ((c : Thread nD τ).loc main_arg1))
          (m ((c : Thread nD τ).loc main_arg2)) (degree (m ((c : Thread nD τ).loc main_arg1))) := by
  refine (stretch_messages (W2 m ρ c)).trans ?_
  rw [mid_arg1 m ρ c, mid_arg2 m ρ c, mid_degree_out m ρ c, mid_product m ρ c]

/-- The in-degree as a column. -/
theorem second_degree (c : Dev nD) :
    W3 m ρ c (Proc.devRef .tc main_v33)
      = shapeCast S100000x1 (degree (m ((c : Thread nD τ).loc main_arg2))) shapeCasts_S100000_S100000x1 := by
  refine (stretch_degree (W2 m ρ c)).trans ?_
  rw [mid_degree_in m ρ c]

/-- The bias as a row. -/
theorem second_bias (c : Dev nD) :
    W3 m ρ c (Proc.devRef .tc main_v34)
      = shapeCast S1x64 (m ((c : Thread nD τ).loc main_arg4)) shapeCasts_S64_S1x64 := by
  refine (stretch_bias (W2 m ρ c)).trans ?_
  rw [mid_arg4 m ρ c]

end Cert.KernelIdeal.HostStretch

end
-- ==== Proof.Spec.lean ====
/-
  The graph layer both programs compute, as functions of arrays over the extended reals.

  `product x w` is the feature matrix times the weight matrix: entry (n, f) is the sum over k of x[n, k] · w[k, f].
  `finish agg deg b` is the layer's last step on the aggregated messages: entry (n, f) is
  max (agg[n, f] · deg[n]^(-1/2) + b[f], 0), where `deg` is the in-degree vector and `b` the bias vector.
  `finishCols` is the same step with the degree given as a one-column matrix and the bias as a one-row matrix,
  the forms the second grid launch reads; the two agree when the column and the row are reshapes of the vectors.
-/
import Idealize.ShloMosaic.Lib.ValueIdx
import Idealize.ShloMosaic.PureOps.Ideal

noncomputable section

namespace Cert.GraphLayer

open Idealize.ShloMosaic Idealize.ShloMosaic.ValueIdx

/-- Features times weights: entry (n, f) is `∑ k, x[n, k] · w[k, f]`. -/
def product (x : FVec Ideal ⟨2, ![100000, 128]⟩ .f32) (w : FVec Ideal ⟨2, ![128, 64]⟩ .f32) :
    FVec Ideal ⟨2, ![100000, 64]⟩ .f32 :=
  fun i => ∑ k : Fin 128, x (ix2 (i 0) k) * w (ix2 k (i 1))

theorem product_apply (x : FVec Ideal ⟨2, ![100000, 128]⟩ .f32) (w : FVec Ideal ⟨2, ![128, 64]⟩ .f32)
    (n : Fin 100000) (f : Fin 64) : product x w (ix2 n f) = ∑ k : Fin 128, x (ix2 n k) * w (ix2 k f) := rfl

/-- The last step with the degree as a column and the bias as a row: entry (n, f) is
    `max (agg[n, f] · deg[n, 0]^(-1/2) + b[0, f], 0)`. -/
def finishCols (agg : FVec Ideal ⟨2, ![100000, 64]⟩ .f32) (deg : FVec Ideal ⟨2, ![100000, 1]⟩ .f32)
    (b : FVec Ideal ⟨2, ![1, 64]⟩ .f32) : FVec Ideal ⟨2, ![100000, 64]⟩ .f32 :=
  fun i => max (agg i * Ideal.rsqrt (deg (ix2 (i 0) (0 : Fin 1))) + b (ix2 (0 : Fin 1) (i 1))) (Ideal.ofBits .f32 0x00000000#32)

theorem finishCols_apply (agg : FVec Ideal ⟨2, ![100000, 64]⟩ .f32) (deg : FVec Ideal ⟨2, ![100000, 1]⟩ .f32)
    (b : FVec Ideal ⟨2, ![1, 64]⟩ .f32) (n : Fin 100000) (f : Fin 64) :
    finishCols agg deg b (ix2 n f)
      = max (agg (ix2 n f) * Ideal.rsqrt (deg (ix2 n (0 : Fin 1))) + b (ix2 (0 : Fin 1) f)) (Ideal.ofBits .f32 0x00000000#32) := rfl

/-- The last step on vectors: entry (n, f) is `max (agg[n, f] · deg[n]^(-1/2) + b[f], 0)`. -/
def finish (agg : FVec Ideal ⟨2, ![100000, 64]⟩ .f32) (deg : FVec Ideal ⟨1, ![100000]⟩ .f32)
    (b : FVec Ideal ⟨1, ![64]⟩ .f32) : FVec Ideal ⟨2, ![100000, 64]⟩ .f32 :=
  fun i => max (agg i * Ideal.rsqrt (deg (ix1 (i 0))) + b (ix1 (i 1))) (Ideal.ofBits .f32 0x00000000#32)

theorem finish_apply (agg : FVec Ideal ⟨2, ![100000, 64]⟩ .f32) (deg : FVec Ideal ⟨1, ![100000]⟩ .f32)
    (b : FVec Ideal ⟨1, ![64]⟩ .f32) (n : Fin 100000) (f : Fin 64) :
    finish agg deg b (ix2 n f)
      = max (agg (ix2 n f) * Ideal.rsqrt (deg (ix1 n)) + b (ix1 f)) (Ideal.ofBits .f32 0x00000000#32) := rfl

end Cert.GraphLayer

end
-- ==== Proof.Layer.lean ====
/-
  The whole graph layer as one function of the five arguments.

  `layer x src dst w b`: multiply the features by the weights, pass the rows along the edges scaled by the sources'
  out-degree to the power -1/2 and sum them at the destinations, scale each node's sum by its in-degree to the power
  -1/2, add the bias and clamp below at zero.
-/
import proofs.«164173_j23459111371162_1_alg».proof.Proof.HostStretch
import proofs.«164173_j23459111371162_1_alg».proof.Proof.Spec

noncomputable section

namespace Cert.KernelIdeal.Layer

open Idealize.ShloMosaic
open Cert.KernelIdeal Cert.KernelIdeal.HostStretch Cert.GraphLayer

/-- The layer's result from the features, the edges' sources and destinations, the weights and the bias. -/
def layer (x : FVec Ideal S100000x128 .f32) (src dst : IVec S3200000 32) (w : FVec Ideal S128x64 .f32)
    (b : FVec Ideal S64 .f32) : FVec Ideal S100000x64 .f32 :=
  finish (aggregate (F := Ideal) (product x w) src dst (degree (F := Ideal) src)) (degree (F := Ideal) dst) b

end Cert.KernelIdeal.Layer

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.ProductValue.lean ====
/-
  The first grid launch: the feature matrix times the weight matrix, block of rows by block of rows.

  Grid point t holds rows 5000·t … 5000·t + 4999 of the features and the whole weight matrix, and writes the same rows of
  the result.  Entry (p, q) of a block's result is the sum over k of (block row p)[k] · w[k, q]: the two casts to the
  narrow format are the identity on the extended reals, and the accumulator starts at zero.  Row p of block t is row
  5000·t + p of the features, so the block written at t is block t of `product` of the two arrays, and the twenty
  blocks cover every row: after the launch the result array is `product` of the two arrays.

  Everything is stated at a parameter `V`, the buffer contents when the launch begins.
-/
import proofs.«164173_j23459111371162_1_alg».proof.Proof.Gen.KernelIdeal.Frame
import proofs.«164173_j23459111371162_1_alg».proof.Proof.LibPlainProduct
import proofs.«164173_j23459111371162_1_alg».proof.Proof.Spec
import Idealize.ShloMosaic.Lib.Pipeline.Value
import Idealize.ShloMosaic.Lib.ValueIdx

set_option maxRecDepth 16384

noncomputable section

namespace Cert.KernelIdeal.ProductValue

open Idealize.ShloMosaic Idealize.ShloMosaic.TcCoe Idealize.ShloMosaic.ValueIdx Idealize.SL.Sem
open Idealize.ShloMosaic.Pipeline (Dat)
open Cert.KernelIdeal Cert.KernelIdeal.Gen Cert.GraphLayer

theorem hz : (![0, 0] : Fin 2 → Nat) = fun _ => 0 := funext fun a => by fin_cases a <;> rfl

/-- Entry (p, q) of a block's result: the sum over k of the feature block's row p times the weight matrix's column q. -/
theorem pay_apply (x : Vec Ideal S5000x128 .f32) (w : Vec Ideal S128x64 .f32) (p : Fin 5000) (q : Fin 64) :
    k0_pay1 (F := Ideal) x w (ix2 p q) = ∑ k : Fin 128, x (ix2 p k) * w (ix2 k q) := by
  unfold k0_pay1
  exact Cert.PlainProduct.matmul_zero_entry dot_S5000x128_S128x64_S5000x64_1_0_0_1_n_n rfl rfl
    (fun j r => by
      unfold DotDims.lhsIdx
      rw [dif_neg (show ¬(0 : Fin S5000x128.rank) ∈ dot_S5000x128_S128x64_S5000x64_1_0_0_1_n_n.lhsBatch by decide),
        dif_pos (show (0 : Fin S5000x128.rank) ∈ dot_S5000x128_S128x64_S5000x64_1_0_0_1_n_n.lhsNonContracting by decide)]
      rfl)
    (fun j r => dot_S5000x128_S128x64_S5000x64_1_0_0_1_n_n.lhsIdx_val_of_single rfl j r)
    (fun j r => dot_S5000x128_S128x64_S5000x64_1_0_0_1_n_n.rhsIdx_val_of_single rfl j r)
    (fun j r => by
      unfold DotDims.rhsIdx
      rw [dif_neg (show ¬(1 : Fin S128x64.rank) ∈ dot_S5000x128_S128x64_S5000x64_1_0_0_1_n_n.rhsBatch by decide),
        dif_pos (show (1 : Fin S128x64.rank) ∈ dot_S5000x128_S128x64_S5000x64_1_0_0_1_n_n.rhsNonContracting by decide)]
      rfl)
    (truncf .bf16 x bitsLt_bf16_f32) (truncf .bf16 w bitsLt_bf16_f32) p q

/-- Where each window's block sits at grid point t: the feature block and the result block at block row t, the
    weight matrix whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What grid point t writes back is block t of the product of the two arrays as the launch finds them. -/
theorem flushed_eq (c : Dev nD) (t : Fin cfg0.N) :
    (dat0 V c).flushed 2 t = ((cfg0.win 2).blk t).view.read (Elt Ideal)
      (product (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  refine (pay_apply (iblk0 V c 0 t) (iblk0 V c 1 t) p q).trans ?_
  obtain ⟨n, f, hnf⟩ : ∃ (n : Fin 100000) (f : Fin 64), ((cfg0.win 2).blk t).view.emb (ix2 p q) = ix2 n f :=
    ⟨_, _, eq_ix2 _⟩
  have hn : win0_2.index t (0 : Fin 2) * 5000 + 1 * p.val = n.val := congrArg (fun i : S100000x64.Idx => (i 0).val) hnf
  have hf : win0_2.index t (1 : Fin 2) * 64 + 1 * q.val = f.val := congrArg (fun i : S100000x64.Idx => (i 1).val) hnf
  show _ = product (V c (Pipeline.arrRef spec0 0)) (V c (Pipeline.arrRef spec0 1)) (((cfg0.win 2).blk t).view.emb (ix2 p q))
  rw [hnf, product_apply]
  refine Finset.sum_congr rfl fun k _ => ?_
  have h0 : ((cfg0.win 0).blk t).view.emb (ix2 p k) = ix2 n k := by
    funext a; apply Fin.ext
    match a with
    | ⟨0, _⟩ => show win0_0.index t (0 : Fin 2) * 5000 + 1 * p.val = n.val; omega
    | ⟨1, _⟩ => show win0_0.index t (1 : Fin 2) * 128 + 1 * k.val = k.val; omega
  have h1 : ((cfg0.win 1).blk t).view.emb (ix2 k q) = ix2 k f := by
    funext a; apply Fin.ext
    match a with
    | ⟨0, _⟩ => show win0_1.index t (0 : Fin 2) * 128 + 1 * k.val = k.val; omega
    | ⟨1, _⟩ => show win0_1.index t (1 : Fin 2) * 64 + 1 * q.val = f.val; omega
  rw [← h0, ← h1]
  rfl

/-- An index of the result array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v11).slice (win0_2.rect t)).set ↔ _
  rw [View.set_slice_whole, Rect.mem_set_unit]
  exact Iff.rfl

/-- Every row lies in some point's block: row r in the block of point r / 5000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4]; omega
  | ⟨1, _⟩ => show win0_2.index t (1 : Fin 2) * 64 ≤ (i 1).val ∧ (i 1).val < win0_2.index t (1 : Fin 2) * 64 + 64; rw [e5]; omega

/-- After the launch the result array is the product of the feature and weight arrays as the launch found them. -/
theorem final (c : Dev nD) :
    (dat0 V c).arrAt 2 cfg0.N = product (V c (Pipeline.arrRef spec0 0)) (V c (Pipeline.arrRef spec0 1)) :=
  (dat0 V c).arrAt_eq_of_cover 2 _ (fun t _ => flushed_eq V c t) cover

end Cert.KernelIdeal.ProductValue

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.FinishValue.lean ====
/-
  The second grid launch: scale each row of the aggregated messages by its in-degree to the power -1/2, add the bias,
  and clamp below at zero, block of rows by block of rows.

  Grid point t holds rows 5000·t … 5000·t + 4999 of the messages and of the degree column, and the whole bias row, and
  writes the same rows of the result.  Entry (p, q) of a block's result is
  max (messages[p, q] · degree[p, 0]^(-1/2) + bias[0, q], 0): the degree column is spread across the 64 columns and the
  bias row down the 5000 rows before the pointwise operations, and the three casts in the body keep their shapes.
  Row p of block t is row 5000·t + p of the arrays, so the block written at t is block t of `finishCols` of the three
  arrays, and the twenty blocks cover every row.

  Everything is stated at a parameter `V`, the buffer contents when the launch begins.
-/
import proofs.«164173_j23459111371162_1_alg».proof.Proof.Gen.KernelIdeal.Frame
import proofs.«164173_j23459111371162_1_alg».proof.Proof.LibColumnLayout
import proofs.«164173_j23459111371162_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.FinishValue

open Idealize.ShloMosaic Idealize.ShloMosaic.TcCoe Idealize.ShloMosaic.ValueIdx Idealize.SL.Sem
open Idealize.ShloMosaic.Pipeline (Dat)
open Cert.KernelIdeal Cert.KernelIdeal.Gen Cert.GraphLayer

theorem hz : (![0, 0] : Fin 2 → Nat) = fun _ => 0 := funext fun a => by fin_cases a <;> rfl

/-- Entry (p, q) of a block's result, from the degree column block `d`, the message block `a` and the bias row `b`. -/
theorem pay_apply (d : Vec Ideal S5000x1 .f32) (a : Vec Ideal S5000x64 .f32) (b : Vec Ideal S1x64 .f32)
    (p : Fin 5000) (q : Fin 64) :
    k1_pay1 (F := Ideal) d a b (ix2 p q)
      = max (a (ix2 p q) * Ideal.rsqrt (d (ix2 p (0 : Fin 1))) + b (ix2 (0 : Fin 1) q)) (Ideal.ofBits .f32 0x00000000#32) := by
  have ha : shapeCast S5000x64 a shapeCasts_S5000x64_S5000x64 = a := shapeCast_self a _
  have hd : shapeCast S5000x1 d shapeCasts_S5000x1_S5000x1 = d := shapeCast_self d _
  have hb : shapeCast S1x64 b shapeCasts_S1x64_S1x64 = b := shapeCast_self b _
  unfold k1_pay1
  show max (shapeCast S5000x64 a shapeCasts_S5000x64_S5000x64 (ix2 p q)
        * broadcastTo S5000x64 (rsqrt (F := Ideal) (shapeCast S5000x1 d shapeCasts_S5000x1_S5000x1)) broadcasts_S5000x1_S5000x64 (ix2 p q)
      + broadcastTo S5000x64 (shapeCast S1x64 b shapeCasts_S1x64_S1x64) broadcasts_S1x64_S5000x64 (ix2 p q))
    (Ideal.ofBits .f32 0x00000000#32) = _
  rw [ha, hd, hb,
    Cert.ColumnLayout.broadcastTo_a1_ab_apply (a := 5000) (b := 64) (rsqrt (F := Ideal) d) broadcasts_S5000x1_S5000x64 p q,
    broadcastTo_1b_ab_apply (a := 5000) (b := 64) b broadcasts_S1x64_S5000x64 p q]
  rfl

/-- Where each window's block sits at grid point t: the message block, the degree block and the result block at
    block row t, the bias row whole. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What grid point t writes back is block t of the last step applied to the three arrays as the launch finds them. -/
theorem flushed_eq (c : Dev nD) (t : Fin cfg1.N) :
    (dat1 V c).flushed 3 t = ((cfg1.win 3).blk t).view.read (Elt Ideal)
      (finishCols (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S5000x1) hz, View.ld_unit_zero (S := S5000x64) hz, View.ld_unit_zero (S := S1x64) hz]
  obtain ⟨e0, e1, e2, e3, e4, e5, e6, e7⟩ := idx_facts t
  funext j
  obtain ⟨p, q, rfl⟩ : ∃ (p : Fin 5000) (q : Fin 64), j = ix2 p q := ⟨j 0, j 1, eq_ix2 j⟩
  refine (pay_apply (iblk1 V c 1 t) (iblk1 V c 0 t) (iblk1 V c 2 t) p q).trans ?_
  obtain ⟨n, f, hnf⟩ : ∃ (n : Fin 100000) (f : Fin 64), ((cfg1.win 3).blk t).view.emb (ix2 p q) = ix2 n f :=
    ⟨_, _, eq_ix2 _⟩
  have hn : win1_3.index t (0 : Fin 2) * 5000 + 1 * p.val = n.val := congrArg (fun i : S100000x64.Idx => (i 0).val) hnf
  have hf : win1_3.index t (1 : Fin 2) * 64 + 1 * q.val = f.val := congrArg (fun i : S100000x64.Idx => (i 1).val) hnf
  show _ = finishCols (V c (Pipeline.arrRef spec1 0)) (V c (Pipeline.arrRef spec1 1)) (V c (Pipeline.arrRef spec1 2))
    (((cfg1.win 3).blk t).view.emb (ix2 p q))
  rw [hnf, finishCols_apply]
  have h0 : ((cfg1.win 0).blk t).view.emb (ix2 p q) = ix2 n f := by
    funext a; apply Fin.ext
    match a with
    | ⟨0, _⟩ => show win1_0.index t (0 : Fin 2) * 5000 + 1 * p.val = n.val; omega
    | ⟨1, _⟩ => show win1_0.index t (1 : Fin 2) * 64 + 1 * q.val = f.val; omega
  have h1 : ((cfg1.win 1).blk t).view.emb (ix2 p (0 : Fin 1)) = ix2 n (0 : Fin 1) := by
    funext a; apply Fin.ext
    match a with
    | ⟨0, _⟩ => show win1_1.index t (0 : Fin 2) * 5000 + 1 * p.val = n.val; omega
    | ⟨1, _⟩ => show win1_1.index t (1 : Fin 2) * 1 + 1 * 0 = 0; omega
  have h2 : ((cfg1.win 2).blk t).view.emb (ix2 (0 : Fin 1) q) = ix2 (0 : Fin 1) f := by
    funext a; apply Fin.ext
    match a with
    | ⟨0, _⟩ => show win1_2.index t (0 : Fin 2) * 1 + 1 * 0 = 0; omega
    | ⟨1, _⟩ => show win1_2.index t (1 : Fin 2) * 64 + 1 * q.val = f.val; omega
  rw [← h0, ← h1, ← h2]
  rfl

/-- An index of the result array is in point t's block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v35).slice (win1_3.rect t)).set ↔ _
  rw [View.set_slice_whole, Rect.mem_set_unit]
  exact Iff.rfl

/-- Every row lies in some point's block: row r in the block of point r / 5000. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, by show (i 0).val / 5000 < grid1.N; rw [N_1]; omega⟩, rfl⟩
  obtain ⟨e0, e1, e2, e3, e4, e5, e6, e7⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; rw [e6]; omega
  | ⟨1, _⟩ => show win1_3.index t (1 : Fin 2) * 64 ≤ (i 1).val ∧ (i 1).val < win1_3.index t (1 : Fin 2) * 64 + 64; rw [e7]; omega

/-- After the launch the result array is the last step applied to the three arrays as the launch found them. -/
theorem final (c : Dev nD) :
    (dat1 V c).arrAt 3 cfg1.N
      = finishCols (V c (Pipeline.arrRef spec1 0)) (V c (Pipeline.arrRef spec1 1)) (V c (Pipeline.arrRef spec1 2)) :=
  (dat1 V c).arrAt_eq_of_cover 3 _ (fun t _ => flushed_eq V c t) cover

end Cert.KernelIdeal.FinishValue

end
-- ==== Proof.KernelValue.lean ====
/-
  What the idealized kernel's result buffer holds after the run: the layer of the five arguments.

  The second launch leaves `finishCols` of the three arrays it finds; the stretch of host operations before it made
  those `aggregate` of the first launch's result, and the in-degree and the bias reshaped to a column and a row; the
  first launch left `product` of the features and the weights, which no host operation before it touched.  A vector
  reshaped to a column reads its entry n at (n, 0), and reshaped to a row reads its entry f at (0, f), so the last
  step on the column and the row is the last step on the vectors.
-/
import proofs.«164173_j23459111371162_1_alg».proof.Proof.Layer
import proofs.«164173_j23459111371162_1_alg».proof.Proof.ProductValue
import proofs.«164173_j23459111371162_1_alg».proof.Proof.FinishValue
import proofs.«164173_j23459111371162_1_alg».proof.Proof.LibColumnLayout
import Idealize.ShloMosaic.Lib.ValueLayout

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen Cert.KernelIdeal.HostStretch Cert.KernelIdeal.Layer Cert.GraphLayer

/-- The last step on a reshaped degree vector and a reshaped bias vector is the last step on the vectors. -/
theorem finishCols_casts (agg : FVec Ideal S100000x64 .f32) (d : FVec Ideal S100000 .f32) (b : FVec Ideal S64 .f32) :
    finishCols agg (shapeCast S100000x1 d shapeCasts_S100000_S100000x1) (shapeCast S1x64 b shapeCasts_S64_S1x64)
      = finish agg d b := by
  funext i
  obtain ⟨n, f, rfl⟩ : ∃ (n : Fin 100000) (f : Fin 64), i = ix2 n f := ⟨i 0, i 1, eq_ix2 i⟩
  rw [finishCols_apply, finish_apply,
    Cert.ColumnLayout.shapeCast_a_a1_apply (a := 100000) d shapeCasts_S100000_S100000x1 n (0 : Fin 1),
    shapeCast_a_1a_apply (a := 64) b shapeCasts_S64_S1x64 (0 : Fin 1) f]

variable (m : (ℓ : Loc nD τ sig) → Buf (Elt Ideal) ℓ) (ρ : Dev nD → PrngReg)

/-- After the run the result buffer holds the layer of the five arguments as launched. -/
theorem result_eq (c : Dev nD) :
    W4 m ρ c (Proc.devRef .tc main_v35)
      = layer (m ((c : Thread nD τ).loc main_arg0)) (m ((c : Thread nD τ).loc main_arg1))
          (m ((c : Thread nD τ).loc main_arg2)) (m ((c : Thread nD τ).loc main_arg3)) (m ((c : Thread nD τ).loc main_arg4)) := by
  refine (W4_arr m ρ c 3).trans ?_
  rw [Cert.KernelIdeal.FinishValue.final (V3 m ρ) c]
  show finishCols (W3 m ρ c (Proc.devRef .tc main_v32)) (W3 m ρ c (Proc.devRef .tc main_v33))
    (W3 m ρ c (Proc.devRef .tc main_v34)) = _
  rw [second_messages m ρ c, second_degree m ρ c, second_bias m ρ c, finishCols_casts,
    Cert.KernelIdeal.ProductValue.final (V1 m ρ) c]
  show finish (aggregate (F := Ideal) (product (W1 m ρ c (Proc.devRef .tc main_arg0)) (W1 m ρ c (Proc.devRef .tc main_arg3))) _ _ _) _ _ = _
  rw [first_arg0 m ρ c, first_arg3 m ρ c]
  rfl

end Cert.KernelIdeal.KernelValue

end
-- ==== Proof.RefValue.lean ====
/-
  The reference program, read as the graph layer.

  Its matrix product, one entry at a time, is the sum over k of x[n, k] · w[k, f]: `product`.  Its last operations
  take the aggregated messages, multiply row n by the in-degree of n to the power -1/2 (the degree vector spread first
  to a column, then across the 64 columns), add the bias (spread first to a row, then down the rows), and take the
  maximum with zero: `finish` of the aggregated messages, the in-degree vector and the bias vector.
-/
import proofs.«164173_j23459111371162_1_alg».proof.Proof.Gen.ReferenceIdeal.Read
import proofs.«164173_j23459111371162_1_alg».proof.Proof.Spec
import Idealize.ShloMosaic.Lib.ValueIdx

set_option maxRecDepth 16384

noncomputable section

namespace Cert.ReferenceIdeal.RefValue

open Idealize.ShloMosaic Idealize.ShloMosaic.ValueIdx
open Cert.ReferenceIdeal Cert.ReferenceIdeal.Read Cert.GraphLayer

/-- The reference's matrix product is `product` of its two operands. -/
theorem product_eq (x0 : FVec Ideal S100000x128 .f32) (x3 : FVec Ideal S128x64 .f32) :
    val_main_v11 (F := Ideal) x0 x3 = product x0 x3 := by
  funext i
  obtain ⟨n, f, rfl⟩ : ∃ (n : Fin 100000) (f : Fin 64), i = ix2 n f := ⟨i 0, i 1, eq_ix2 i⟩
  rw [val_main_v11_apply, product_apply]
  refine Finset.sum_congr rfl fun k _ => ?_
  have el : lidx_main_v11 (ix2 n f) k = ix2 n k :=
    funext fun a => Fin.ext (by match a with | ⟨0, _⟩ => rfl | ⟨1, _⟩ => rfl)
  have er : ridx_main_v11 (ix2 n f) k = ix2 k f :=
    funext fun a => Fin.ext (by match a with | ⟨0, _⟩ => rfl | ⟨1, _⟩ => rfl)
  rw [el, er]

/-- The reference's result is `finish` of its aggregated messages, its in-degree vector and the bias. -/
theorem finish_eq (x0 : FVec Ideal S100000x128 .f32) (x1 x2 : IVec S3200000 32) (x3 : FVec Ideal S128x64 .f32)
    (x4 : FVec Ideal S64 .f32) :
    val_main_v40 (F := Ideal) x0 x1 x2 x3 x4
      = finish (val_main_v32 (F := Ideal) x0 x1 x2 x3) (val_main_v10 (F := Ideal) x2) x4 := by
  funext i
  obtain ⟨n, f, rfl⟩ : ∃ (n : Fin 100000) (f : Fin 64), i = ix2 n f := ⟨i 0, i 1, eq_ix2 i⟩
  have e1 : idx_main_v34 (idx_main_v35 (ix2 n f)) = ix1 n :=
    funext fun a => Fin.ext (by match a with | ⟨0, _⟩ => rfl)
  have e2 : idx_main_v37 (idx_main_v38 (ix2 n f)) = ix1 f :=
    funext fun a => Fin.ext (by match a with | ⟨0, _⟩ => rfl)
  rw [val_main_v40_apply, val_main_v39_apply, val_main_v36_apply, val_main_v35_apply, val_main_v34_apply,
    val_main_v33_apply, val_main_v38_apply, val_main_v37_apply, val_main_call0_v0_apply, val_main_call0_cst_apply]
  have key : ∀ (a : S100000.Idx) (b : S64.Idx), a = ix1 n → b = ix1 f →
      FloatOps.maximumf (FloatOps.addf (FloatOps.mulf (val_main_v32 (F := Ideal) x0 x1 x2 x3 (ix2 n f))
          (FloatOps.hostUnary .rsqrt (val_main_v10 (F := Ideal) x2 a))) (x4 b)) (FloatOps.ofBits .f32 0x00000000#32)
        = finish (val_main_v32 (F := Ideal) x0 x1 x2 x3) (val_main_v10 (F := Ideal) x2) x4 (ix2 n f) := by
    rintro a b rfl rfl
    simp only [finish_apply, Ideal.maximumf_def, Ideal.addf_def, Ideal.mulf_def, Ideal.hostUnary_rsqrt_def, Ideal.ofBits_def]
  exact key _ _ e1 e2

end Cert.ReferenceIdeal.RefValue

end
-- ==== Proof.SameHost.lean ====
/-
  The reference program applies the same host operations as the kernel's program.

  Its two degree counts are `degree` of the sources and of the destinations, and its message passing is `aggregate`
  of its matrix product, the two index arrays and its out-degree: operation by operation the two programs' texts are
  the same, and their dimension records carry the same numbers.  With the reference's product and last step read as
  `product` and `finish`, its result is `layer` of its five arguments.
-/
import proofs.«164173_j23459111371162_1_alg».proof.Proof.Layer
import proofs.«164173_j23459111371162_1_alg».proof.Proof.RefValue

set_option maxRecDepth 16384

noncomputable section

namespace Cert.SameHost

open Idealize.ShloMosaic
open Cert.ReferenceIdeal Cert.ReferenceIdeal.Read Cert.GraphLayer
open Cert.KernelIdeal.HostStretch Cert.KernelIdeal.Layer

variable {F : FTy → Type} [FloatOps F]

/-- The reference's clamped out-degree is `degree` of the sources. -/
theorem degree_out_eq (x1 : (⟨S3200000, .i32⟩ : BufTy).Contents (Elt F)) :
    val_main_v5 (F := F) x1 = degree (F := F) x1 := rfl

/-- The reference's clamped in-degree is `degree` of the destinations. -/
theorem degree_in_eq (x2 : (⟨S3200000, .i32⟩ : BufTy).Contents (Elt F)) :
    val_main_v10 (F := F) x2 = degree (F := F) x2 := rfl

/-- The reference's aggregated messages are `aggregate` of its product, the index arrays and its out-degree. -/
theorem aggregate_eq (x0 : (⟨S100000x128, .f32⟩ : BufTy).Contents (Elt F)) (x1 x2 : (⟨S3200000, .i32⟩ : BufTy).Contents (Elt F))
    (x3 : (⟨S128x64, .f32⟩ : BufTy).Contents (Elt F)) :
    val_main_v32 (F := F) x0 x1 x2 x3
      = aggregate (F := F) (val_main_v11 (F := F) x0 x3) x1 x2 (val_main_v5 (F := F) x1) := rfl

/-- The reference's result is the layer of its five arguments. -/
theorem reference_layer (x0 : FVec Ideal S100000x128 .f32) (x1 x2 : IVec S3200000 32) (x3 : FVec Ideal S128x64 .f32)
    (x4 : FVec Ideal S64 .f32) :
    val_main_v40 (F := Ideal) x0 x1 x2 x3 x4 = layer x0 x1 x2 x3 x4 := by
  rw [Cert.ReferenceIdeal.RefValue.finish_eq, aggregate_eq, Cert.ReferenceIdeal.RefValue.product_eq, degree_out_eq, degree_in_eq]
  rfl

end Cert.SameHost

end
-- ==== Proof.lean ====
/-
  A graph convolution layer with symmetric degree normalisation and a clamp at zero, computed two ways, gives equal
  results on the extended reals.

  Both programs take node features x (100000 × 128), the sources and destinations of 3200000 edges, weights w (128 × 64)
  and a bias b (64), and compute

      out[n, f] = max ( (Σ over edges e with dst e = n of (x · w)[src e, f] · dOut[src e]^(-1/2)) · dIn[n]^(-1/2) + b[f] , 0 ),

  where dOut and dIn count, per node, the edges leaving and entering it, clamped below at one.  The reference does
  every step with whole-array operations.  The kernel's program does the product x · w in a grid launch over twenty
  blocks of 5000 rows, the degree counts and the gather / scatter-add along the edges with the same whole-array
  operations as the reference, and the last step (the in-degree scaling, the bias, the clamp) in a second grid launch
  over the same twenty blocks.

  What differs is only how the product and the last step are tiled.  A block row of the product is the same sum over
  the 128 inner indices as the whole-array product's entry (the casts to the narrow float format are the identity on the
  extended reals, and the accumulator starts at zero); the last step is pointwise in the row, with the in-degree read
  as a column and the bias as a row.  The degree counts and the edge aggregation are one and the same function of
  their inputs in both programs and are never opened.  No step needs the inputs to be finite.

  The modules: `Spec` (the product and the last step as functions), `OutRun` (the kernel's run with its result
  named), `ProductValue` and `FinishValue` (each launch's result array as a whole), `HostStretch` and `Layer` (the
  host operations between the launches, and the whole layer), `KernelValue` (the kernel's result is the layer),
  `RefValue` and `SameHost` (the reference's result is the layer).
-/
import proofs.«164173_j23459111371162_1_alg».proof.Defs
import proofs.«164173_j23459111371162_1_alg».proof.Proof.Gen.Kernel
import proofs.«164173_j23459111371162_1_alg».proof.Proof.Gen.Kernel.Frame
import proofs.«164173_j23459111371162_1_alg».proof.Proof.Gen.KernelIdeal
import proofs.«164173_j23459111371162_1_alg».proof.Proof.Gen.KernelIdeal.Frame
import proofs.«164173_j23459111371162_1_alg».proof.Proof.Gen.ReferenceIdeal
import proofs.«164173_j23459111371162_1_alg».proof.Proof.Gen.ReferenceIdeal.Read
import proofs.«164173_j23459111371162_1_alg».proof.Proof.Gen.Pre_finite_inputs
import proofs.«164173_j23459111371162_1_alg».proof.Proof.OutRun
import proofs.«164173_j23459111371162_1_alg».proof.Proof.KernelValue
import proofs.«164173_j23459111371162_1_alg».proof.Proof.SameHost
import Idealize.ShloMosaic.Adequacy
import Idealize.ShloMosaic.Init

set_option maxRecDepth 16384

noncomputable section

namespace Cert.Proof

open Idealize.ShloMosaic Idealize.ShloMosaic.TcCoe Idealize.SL.Sem

/-- The kernel's program as printed runs to the end without a fault and leaves its arguments as launched. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is a line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel's program on the extended reals rewrote no operation. -/
theorem preserves : Cert.preserves_Kernel_KernelIdeal := trivial

/-- From memories that agree on the five arguments both programs end with the layer of those arguments in their
    result buffers. -/
theorem algebraic : Cert.algebraic_KernelIdeal_ReferenceIdeal := by
  intro m ρ m' ρ' _ hagree
  refine ⟨fun c => Cert.KernelIdeal.Layer.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.KernelValue.result_eq m ρ c), (h c).2⟩)
      (Cert.KernelIdeal.OutRun.run_out m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v40_eq, Cert.SameHost.reference_layer,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
